-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x64 .f32) (main_arg3 : FVec F S64 .f32) (main_arg4 : FVec F S256x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S256x128 : Shape := ⟨2, ![256, 128]⟩
abbrev S50000x128 : Shape := ⟨2, ![50000, 128]⟩
abbrev S5000x256 : Shape := ⟨2, ![5000, 256]⟩
abbrev S5000x128 : Shape := ⟨2, ![5000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S50000x64 : Shape := ⟨2, ![50000, 64]⟩
abbrev S1x64 : Shape := ⟨2, ![1, 64]⟩

abbrev nBuf : Space → Nat
  | .hbm => 59
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64, .f32⟩
  | .hbm, ⟨6, _⟩ => ⟨S256x128, .f32⟩
  | .hbm, ⟨7, _⟩ => ⟨S50000x128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x128, .f32⟩
  | .hbm, ⟨44, _⟩ => ⟨S_, .f32⟩
  | .hbm, ⟨45, _⟩ => ⟨S50000x128, .f32⟩
  | .hbm, ⟨46, _⟩ => ⟨S850000x1, .i32⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S256x64_S256x64_S256x128_d1 : Shape.Concatenates [S256x64, S256x64] S256x128 1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S50000x128_S50000x64_0_0 : S50000x128.Slices ![0, 0] S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x128_S50000x64_0_64 : S50000x128.Slices ![0, 64] S50000x64
  dot_S5000x256_S256x128_S5000x128_1_0_0_1_n_n_wf : DotDims.WF S5000x256 S256x128 S5000x128 [1] [0] [0] [1] [] []
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x64, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x1, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x256_S256x64_S50000x64_1_0_0_1_n_n_wf : DotDims.WF S50000x256 S256x64 S50000x64 [1] [0] [0] [1] [] []
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.XwArray.lean ====
/-
  The projection table the kernel's region leaves.

  The region multiplies the node features `x : [50000, 256]` by the joined weights `w : [256, 128]`, ten row blocks
  of 5000 rows at a time: grid point `t` reads rows `5000 t … 5000 t + 4999` of `x` and all of `w`, and writes rows
  `5000 t … 5000 t + 4999` of the result. Over the extended reals a change of float format is the identity and the
  matrix unit's product into a zero accumulator is the plain sum, so entry `(r, q)` of the block written at `t` is
  `∑ k < 256, x (5000 t + r, k) · w (k, q)`: block `t` of ONE table, `prod x w`. The ten blocks tile the table
  (row `r` lies in block `r / 5000`), so after the region the result array IS `prod x w`, where `w` is the two weight
  matrices side by side, as the one host operation before the region leaves them.
-/
import proofs.«135606_j35605278883995_2_alg».proof.Proof.Gen.KernelIdeal.Frame
import proofs.«135606_j35605278883995_2_alg».proof.Proof.LibContract
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open scoped BigOperators

namespace Cert.KernelIdeal.XwArray

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The product of a `[50000, 256]` table with a `[256, 128]` table, entry by entry. -/
def prod (x : S50000x256.Idx → EReal) (w : S256x128.Idx → EReal) : S50000x128.Idx → EReal :=
  fun i => ∑ k : Fin 256, x (ix2 (i 0) k) * w (ix2 k (i 1))

theorem prod_apply (x : S50000x256.Idx → EReal) (w : S256x128.Idx → EReal) (n : Fin 50000) (q : Fin 128) :
    prod x w (ix2 n q) = ∑ k : Fin 256, x (ix2 n k) * w (ix2 k q) := rfl

/-- The left operand's row is the result's row. -/
theorem lhs_row (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- The right operand's column is the result's column. -/
theorem rhs_col (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- What the body stores, at entry `(p, q)` of the block: the row of the feature block against the column of the
    weights. -/
theorem pay_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  refine (Ideal.matmul_constant_zero_apply dot_S5000x256_S256x128_S5000x128_1_0_0_1_n_n none _ _ (ix2 p q)).trans ?_
  refine (Idealize.ShloMosaic.Contract2.sum_contr_eq_sum_fin (M := EReal) dot_S5000x256_S256x128_S5000x128_1_0_0_1_n_n
    rfl rfl rfl rfl lhs_row rhs_col _ _ (ix2 p q)).trans ?_
  refine Finset.sum_congr rfl fun k _ => ?_
  rw [shapeCast_self]
  rfl

/-- The printed index maps over the grid: the feature block moves with the result block down the rows, the weights
    stay, and point `t` writes row block `t`. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dats m 0 c).flushed 2 t
      = ((cfg0.win 2).blk t).view.read (Elt Ideal) (prod (V m c main_arg0) (V m c main_v0)) := by
  show (cfg0.win 2).cut (grid0.coords t) ((dats m 0 c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk m c 0 t) (iblk m c 1 t) (ix2 p q)
      = prod (V m c main_arg0) (V m c main_v0) (((cfg0.win 2).blk t).view.emb (ix2 p q))
  refine (pay_apply _ _ p q).trans ?_
  unfold prod
  refine Finset.sum_congr rfl fun k _ => ?_
  have ha : iblk m c 0 t (ix2 p k)
      = V m c main_arg0 (ix2 ((((cfg0.win 2).blk t).view.emb (ix2 p q)) 0) k) := by
    show V m c main_arg0 (((cfg0.win 0).blk t).view.emb (ix2 p k)) = _
    refine congrArg (V m c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 256 + 1 * k.val = k.val
      omega
  have hb : iblk m c 1 t (ix2 k q)
      = V m c main_v0 (ix2 k ((((cfg0.win 2).blk t).view.emb (ix2 p q)) 1)) := by
    show V m c main_v0 (((cfg0.win 1).blk t).view.emb (ix2 k q)) = _
    refine congrArg (V m c main_v0) (funext fun a => Fin.ext ?_)
    match a with
    | ⟨0, _⟩ =>
      show win0_1.index t (0 : Fin 2) * 256 + 1 * k.val = k.val
      omega
    | ⟨1, _⟩ =>
      show win0_1.index t (1 : Fin 2) * 128 + 1 * q.val = win0_2.index t (1 : Fin 2) * 128 + 1 * q.val
      omega
  rw [ha, hb]

/-- An entry of the result array is in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v1).slice (win0_2.rect t)).set ↔ _
  rw [View.set_slice_whole, Rect.mem_set_unit]
  exact Iff.rfl

/-- Every entry of the result array is written back by some point: row `r` by point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  obtain ⟨-, -, -, -, e4, e5⟩ := idx_facts ⟨(i 0).val / 5000, by rw [hN]; omega⟩
  rw [mem_blk]
  intro a
  match a with
  | ⟨0, _⟩ =>
    show win0_2.index _ (0 : Fin 2) * 5000 ≤ (i 0).val ∧ (i 0).val < win0_2.index _ (0 : Fin 2) * 5000 + 5000
    rw [e4]
    show (i 0).val / 5000 * 5000 ≤ (i 0).val ∧ (i 0).val < (i 0).val / 5000 * 5000 + 5000
    omega
  | ⟨1, _⟩ =>
    show win0_2.index _ (1 : Fin 2) * 128 ≤ (i 1).val ∧ (i 1).val < win0_2.index _ (1 : Fin 2) * 128 + 128
    rw [e5]
    omega

/-- The weights as the region finds them: the two weight matrices side by side. -/
theorem V_main_v0 (c : Dev nD) :
    (V m c main_v0 : S256x128.Idx → EReal)
      = concatenate S256x128 1 [⟨S256x64, m ((c : Thread nD τ).loc main_arg2)⟩, ⟨S256x64, m ((c : Thread nD τ).loc main_arg4)⟩]
          concatenates_S256x64_S256x64_S256x128_d1 := by
  show StableHlo.after hostOps0 (fun b => m (c, b)) (Proc.devRef .tc main_v0) = _
  after_results

/-- The result array after the region: the product of the features with the joined weights. -/
theorem final (c : Dev nD) :
    (dats m 0 c).arrAt 2 cfg0.N
      = prod (m ((c : Thread nD τ).loc main_arg0))
          (concatenate S256x128 1 [⟨S256x64, m ((c : Thread nD τ).loc main_arg2)⟩, ⟨S256x64, m ((c : Thread nD τ).loc main_arg4)⟩]
            concatenates_S256x64_S256x64_S256x128_d1) := by
  rw [← V_main_v0 m c, ← V_main_arg0 m c]
  exact (dats m 0 c).arrAt_eq_of_cover 2 (prod (V m c main_arg0) (V m c main_v0)) (fun t _ => flushed_eq m c t) cover

end Cert.KernelIdeal.XwArray

end
-- ==== Proof.LibRowScatter.lean ====
/-
  Rows of a matrix moved by an index column, read at an index.

  A graph layer gathers the rows of a node table `[N, C]` at one index per edge (`[E, 1]`, the edge's source) and
  adds the gathered rows `[E, C]` into a node table at another index per edge (the edge's target). This file reads
  both operations at one entry, for any extents `N`, `E`, `C`:

  * `gather_rows_apply`: entry `(e, c)` of the gathered table is the operand's entry `(r, c)`, where `r` is the
    edge's index read as a signed integer and clamped into `[0, N - 1]`; `gather_vec_apply` is the same for a
    vector `[N]` gathered into `[E]`;
  * `scatterAdd_rows_apply`: over the extended reals, entry `(n, c)` of the accumulated table is the operand's
    entry plus the sum, over the edges whose index read as a signed integer IS `n`, of the update's entry `(e, c)`.
    An edge whose index is negative or at least `N` contributes to no row.
    (`host_scatterAdd_rows_apply` is the same statement for the host operation `Host.scatterAdd` at the ideal instance.)
  * `clamp_of_inRange` / `wrapNeg_of_nonneg`: an index already in `[0, N)` is left alone both by the clamp and by
    the normalisation of negative indices `select (v < 0) (v + N) v` that precedes a gather.
-/
import Idealize.ShloMosaic.Lib.ValueIdx
import Idealize.ShloMosaic.Lib.Affine

noncomputable section

open scoped BigOperators

namespace Idealize.ShloMosaic.RowScatter

open Idealize.ShloMosaic Idealize.ShloMosaic.ValueIdx

/-! ## Two rank-2 indices are equal when their coordinates are -/

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-! ## Gathering rows -/

/-- The dimension numbers of `x[idx]` for a table `x : [N, C]` and one row index per edge, `idx : [E, 1]`:
    the row axis is collapsed and indexed, the column axis is the slice. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered rows: the table's row at edge `e`'s index, read signed and clamped into
    `[0, N - 1]`, at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  refine congrArg x (funext fun a => Fin.ext ?_)
  show (rowGather N E C wf).start (ix2 e c) idx a + (rowGather N E C wf).batchCoord (ix2 e c) a
      + (rowGather N E C wf).offCoord (ix2 e c) a = _
  rw [GatherDims.batchCoord_eq_zero _ _ _ List.not_mem_nil]
  revert a
  refine Fin.forall_fin_two.mpr ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from
      fun h => absurd (List.mem_singleton.mp h) (show (1 : Fin 2) ≠ 0 by decide))]
    simp only [Nat.zero_add, Nat.add_zero]
    unfold GatherDims.offCoord
    rw [dif_pos (show (1 : Fin 2) ∈ (rowGather N E C wf).sKept from
      (GatherDims.mem_sKept _ _).mpr ⟨fun h => absurd (List.mem_singleton.mp h) (show (1 : Fin 2) ≠ 0 by decide), List.not_mem_nil⟩)]
    rfl

/-- The dimension numbers of `v[idx]` for a vector `v : [N]` and one index per edge, `idx : [E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector: the vector at edge `e`'s index, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  refine congrArg x (funext fun a => Fin.ext ?_)
  obtain rfl : a = 0 := Subsingleton.elim _ _
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into a table -/

/-- The dimension numbers of `x.at[idx].add(u)` for a table `x : [N, C]`, one row index per edge `idx : [E, 1]`
    and one row of updates per edge `u : [E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- Where update entry `(e, c)` lands: row `t`, column `c`, when edge `e`'s index read signed is a row `t` of the
    table; nowhere when it is negative or at least `N`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = if h : 0 ≤ (idx (ix2 e (0 : Fin 1))).toInt ∧ (idx (ix2 e (0 : Fin 1))).toInt < N then
          some (ix2 ⟨(idx (ix2 e (0 : Fin 1))).toInt.toNat, by omega⟩ c)
        else none := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => absurd (List.mem_singleton.mp h) (show (1 : Fin 2) ≠ 0 by decide))]
  have hw0 : (rowScatter N E C wf).window (ix2 e c) 0 = 0 := by
    unfold ScatterDims.window
    rw [dif_neg (show ¬ (0 : Fin 2) ∈ (rowScatter N E C wf).sKept from
      fun h => (mem_sKept _ _).mp h (List.mem_singleton.mpr rfl))]
  have hw1 : (rowScatter N E C wf).window (ix2 e c) 1 = c.val := by
    unfold ScatterDims.window
    rw [dif_pos (show (1 : Fin 2) ∈ (rowScatter N E C wf).sKept from
      (mem_sKept _ _).mpr fun h => absurd (List.mem_singleton.mp h) (show (1 : Fin 2) ≠ 0 by decide))]
    rfl
  unfold ScatterDims.resultIdx?
  by_cases h : 0 ≤ (idx (ix2 e (0 : Fin 1))).toInt ∧ (idx (ix2 e (0 : Fin 1))).toInt < N
  · have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : ℤ) := by
      refine Fin.forall_fin_two.mpr ⟨?_, ?_⟩
      · rw [hs0, hw0]
        refine ⟨by omega, ?_⟩
        show (idx (ix2 e (0 : Fin 1))).toInt + ((0 : ℕ) : ℤ) < (N : ℤ)
        omega
      · rw [hs1, hw1]
        refine ⟨by omega, ?_⟩
        show (0 : ℤ) + (c.val : ℤ) < (C : ℤ)
        have := c.isLt; omega
    rw [dif_pos hall, dif_pos h]
    refine congrArg some (funext fun a => Fin.ext ?_)
    match a with
    | ⟨0, _⟩ =>
      show ((rowScatter N E C wf).start (ix2 e c) idx 0 + (rowScatter N E C wf).window (ix2 e c) 0).toNat = _
      rw [hs0, hw0]; simp
    | ⟨1, _⟩ =>
      show ((rowScatter N E C wf).start (ix2 e c) idx 1 + (rowScatter N E C wf).window (ix2 e c) 1).toNat = _
      rw [hs1, hw1]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `(n, c)` of a table after rows are added into it, over the extended reals: the entry before, plus the
    sum over the edges whose index read signed is `n` of the update's entry `(e, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : ℤ)), upd (ix2 e c) := by
  unfold Ideal.hostScatterAdd
  refine congrArg (x (ix2 n c) + ·) ?_
  rw [Finset.sum_filter, Finset.sum_filter, sum_idx2]
  refine Finset.sum_congr rfl fun e _ => ?_
  have hiff : ∀ c' : Fin C, ((rowScatter N E C wf).resultIdx? (ix2 e c') idx = some (ix2 n c))
      ↔ ((idx (ix2 e (0 : Fin 1))).toInt = (n.val : ℤ) ∧ c' = c) := by
    intro c'
    rw [rowScatter_resultIdx?]
    by_cases h : 0 ≤ (idx (ix2 e (0 : Fin 1))).toInt ∧ (idx (ix2 e (0 : Fin 1))).toInt < N
    · rw [dif_pos h, Option.some_inj, ix2_inj]
      constructor
      · rintro ⟨h1, h2⟩
        refine ⟨?_, h2⟩
        have := congrArg Fin.val h1
        simp only at this
        omega
      · rintro ⟨h1, h2⟩
        refine ⟨Fin.ext ?_, h2⟩
        show (idx (ix2 e (0 : Fin 1))).toInt.toNat = n.val
        omega
    · rw [dif_neg h]
      constructor
      · intro hh; exact absurd hh (by simp)
      · rintro ⟨h1, _⟩
        exfalso; apply h
        have := n.isLt
        omega
  by_cases ht : (idx (ix2 e (0 : Fin 1))).toInt = (n.val : ℤ)
  · rw [if_pos ht]
    rw [Finset.sum_eq_single c]
    · rw [if_pos ((hiff c).mpr ⟨ht, rfl⟩)]
    · intro c' _ hne
      rw [if_neg (fun hh => hne ((hiff c').mp hh).2)]
    · intro hc; exact absurd (Finset.mem_univ c) hc
  · rw [if_neg ht]
    refine Finset.sum_eq_zero fun c' _ => ?_
    rw [if_neg (fun hh => ht ((hiff c').mp hh).1)]

/-- The same for the host's accumulating scatter at the ideal instance, which is that sum. -/
theorem host_scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w)
    (upd : FVec Ideal ⟨2, ![E, C]⟩ .f32) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)), upd (ix2 e c) :=
  scatterAdd_rows_apply wf x idx upd n c

/-! ## An index already in range -/

/-- The clamp into `[0, N - 1]` leaves an index in `[0, N)` alone. -/
theorem clamp_of_inRange {w N : Nat} (v : BitVec w) (h0 : 0 ≤ v.toInt) (hN : v.toInt < N) :
    min v.toInt.toNat (N - 1) = v.toInt.toNat := by
  omega

/-- The normalisation of a possibly negative index, `select (v < 0) (v + N) v` one element at a time, leaves a
    non-negative index alone. -/
theorem wrapNeg_of_nonneg {w : Nat} (v z nn : BitVec w) (hz : z.toInt = 0) (h0 : 0 ≤ v.toInt) :
    Scalar.select (IntOp.cmpi .slt v z) (IntOp.addi v nn) v = v := by
  unfold Scalar.select
  rw [if_neg]
  intro h
  have := IntOp.cmpi_slt.mp h
  omega

end Idealize.ShloMosaic.RowScatter

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.Gcn.lean ====
/-
  One graph-convolution layer computed two ways, over the extended reals.

  The graph has 50000 nodes and 850000 edges: the 800000 given ones followed by one self loop per node. Edge `e` has a
  source `s e` and a target `t e` (32-bit words read as signed integers). With `deg n` the number of edges whose target
  is `n` and `dis n = 1 / sqrt (max (deg n) 1)` where `deg n > 0`, `0` otherwise, the layer sends a node table `xw` to

      out (n, q) = ∑ over the edges e with t e = n of  xw (s' e, q) · dis (s' e) · dis n     + bias q,

  where `s' e` is the source clamped into the table after negative indices are shifted by 50000.

  THE FIRST WAY (`kAgg`, `kOut`) scales the table's rows by `dis` first, gathers the scaled rows, adds them into the
  targets' rows, scales the sums by `dis` again, and then takes 64 of the 128 columns and adds the bias:
      ( ∑_{t e = n} (xw (s' e, q) · dis (s' e)) ) · dis n + bias q.
  THE SECOND WAY (`rOut`) gathers the rows, multiplies each by the edge's weight `dis (s' e) · dis (t' e)` — `t' e` the
  target normalised and clamped like the source — and adds those into the targets' rows:
      ∑_{t e = n} xw (s' e, q) · (dis (s' e) · dis (t' e)) + bias q.
  An edge whose target is not a node (negative, or at least 50000) is added nowhere in either; for the others
  `t' e = t e = n`. So the two agree as soon as the factor `dis n` may be moved inside the sum, and it may: it is a
  non-negative real (never `+∞`: the reciprocal square root is taken of something at least 1), and multiplication by a
  non-negative real distributes over every sum of extended reals, whatever the summands (`sum_mul_of_nonneg`).
  Nothing here needs the table's entries to be finite.
-/
import proofs.«135606_j35605278883995_2_alg».proof.Proof.LibRowScatter
import proofs.«135606_j35605278883995_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx Idealize.ShloMosaic.RowScatter

/-! ## Shapes -/

abbrev SE2 : Shape := ⟨2, ![2, 800000]⟩
abbrev S1E : Shape := ⟨2, ![1, 800000]⟩
abbrev SE : Shape := ⟨1, ![800000]⟩
abbrev SN : Shape := ⟨1, ![50000]⟩
abbrev SM : Shape := ⟨1, ![850000]⟩
abbrev SM1 : Shape := ⟨2, ![850000, 1]⟩
abbrev S0 : Shape := ⟨0, ![]⟩
abbrev SN1 : Shape := ⟨2, ![50000, 1]⟩
abbrev SN128 : Shape := ⟨2, ![50000, 128]⟩
abbrev SN64 : Shape := ⟨2, ![50000, 64]⟩
abbrev SM128 : Shape := ⟨2, ![850000, 128]⟩
abbrev SM64 : Shape := ⟨2, ![850000, 64]⟩
abbrev SZ : Shape := ⟨1, ![64]⟩
abbrev S1Z : Shape := ⟨2, ![1, 64]⟩

/-! ## The edges' endpoints and the nodes' weights (the same in both computations) -/

/-- Row `r` of the edge list (`0`: sources, `1`: targets), followed by one self loop per node. -/
def endpoints (r : Nat) (hs : SE2.Slices ![r, 0] S1E) (e : IVec SE2 32) : IVec SM 32 :=
  concatenate SM 0 [⟨SE, shapeCast SE (extractStridedSlice S1E ![r, 0] e hs) (by decide)⟩, ⟨SN, iotaInDim SN 32 0⟩]
    (by decide : Shape.Concatenates [SE, SN] SM 0)

/-- An index vector as the one-column matrix a gather or a scatter reads. -/
def col (v : IVec SM 32) : IVec SM1 32 := broadcastInDim SM1 ![0] (by decide) v

/-- Negative indices shifted up by the number of nodes. -/
def wrapNeg (v : IVec SM 32) : IVec SM 32 :=
  select (cmpi .slt v (broadcastInDim SM ![] (by decide) (constantI S0 32 0#32)))
    (addi v (broadcastInDim SM ![] (by decide) (constantI S0 32 50000#32))) v

/-- The dimension numbers of adding one number per edge into a vector of nodes. -/
abbrev degDims : ScatterDims SN SM1 SM where
  updateWindowDims := []
  insertedWindowDims := [0]
  scatterDimsToOperandDims := [0]
  indexVectorDim := 1

/-- The in-degree of every node: a one added per edge at its target. -/
def deg (dst : IVec SM 32) : FVec Ideal SN .f32 :=
  Host.scatterAdd degDims (broadcastInDim SN ![] (by decide) (constant S0 .f32 0x00000000#32)) (col dst)
    (broadcastInDim SM ![] (by decide) (constant S0 .f32 0x3F800000#32))

/-- The node weights: the reciprocal square root of the degree, at least one, where the degree is positive, else zero. -/
def dis (dst : IVec SM 32) : FVec Ideal SN .f32 :=
  select (cmpf .ogt (deg dst) (broadcastInDim SN ![] (by decide) (constant S0 .f32 0x00000000#32)))
    (Host.rsqrt (maximumf (deg dst) (broadcastInDim SN ![] (by decide) (constant S0 .f32 0x3F800000#32))))
    (broadcastInDim SN ![] (by decide) (id (constant S0 .f32 0x00000000#32)))

theorem ofBits_one : Ideal.ofBits .f32 0x3F800000#32 = ((1 : ℝ) : EReal) := by
  simp [Ideal.ofBits, Ideal.ieee]
  norm_num
  exact_mod_cast (by norm_num : (8388608 : ℝ) * (1 / 8388608) = 1)

/-- The reciprocal square root of something at least one is a non-negative real. -/
theorem rsqrt_max_one (y : EReal) :
    0 ≤ Ideal.rsqrt (max y ((1 : ℝ) : EReal)) ∧ Ideal.rsqrt (max y ((1 : ℝ) : EReal)) ≠ ⊤ := by
  have h1 : ((1 : ℝ) : EReal) ≤ max y ((1 : ℝ) : EReal) := le_max_right _ _
  generalize max y ((1 : ℝ) : EReal) = z at h1 ⊢
  induction z using EReal.rec with
  | bot => exact absurd h1 (not_le.mpr (EReal.bot_lt_coe 1))
  | top => rw [Ideal.rsqrt_top]; exact ⟨le_refl _, EReal.zero_ne_top⟩
  | coe r =>
    have hr : (1 : ℝ) ≤ r := by exact_mod_cast h1
    have hr0 : ¬ r < 0 := by linarith
    have hr1 : r ≠ 0 := by linarith
    rw [Ideal.rsqrt_coe, if_neg hr0, if_neg hr1]
    refine ⟨?_, EReal.coe_ne_top _⟩
    exact_mod_cast inv_nonneg.mpr (Real.sqrt_nonneg r)

/-- A scalar constant spread over the nodes reads the constant at every node. -/
theorem bc_const (w : BitVec 32) (h : S0.BroadcastsInDim SN ![]) (i : SN.Idx) :
    broadcastInDim SN ![] h (constant (F := Ideal) S0 .f32 w) i = Ideal.ofBits .f32 w := rfl

/-- The host's reciprocal square root of a vector, at an entry. -/
theorem hostRsqrt_apply (x : FVec Ideal SN .f32) (i : SN.Idx) : Host.rsqrt x i = Ideal.rsqrt (x i) := rfl

/-- Every node weight is a non-negative real. -/
theorem dis_nonneg (dst : IVec SM 32) (i : SN.Idx) : 0 ≤ dis dst i ∧ dis dst i ≠ ⊤ := by
  unfold dis
  generalize deg dst = D
  rw [select_apply, hostRsqrt_apply, maximumf_apply]
  simp only [id_eq]
  rw [bc_const, bc_const, ofBits_one, Ideal.ofBits_zero_f32]
  unfold Scalar.select
  split_ifs
  · exact rsqrt_max_one _
  · exact ⟨le_refl _, EReal.zero_ne_top⟩

/-! ## Multiplication by a non-negative real distributes over a sum of extended reals -/

theorem sum_mul_of_nonneg {ι : Type} (s : Finset ι) (t : ι → EReal) (d : EReal) (h0 : 0 ≤ d) (ht : d ≠ ⊤) :
    (∑ e ∈ s, t e) * d = ∑ e ∈ s, t e * d := by
  classical
  induction s using Finset.induction_on with
  | empty => simp
  | insert a s ha ih =>
    rw [Finset.sum_insert ha, Finset.sum_insert ha, EReal.right_distrib_of_nonneg_of_ne_top h0 ht, ih]

/-! ## The first way: scale, gather, add into the targets, scale again -/

/-- The node weights spread across a table's 128 columns. -/
def disCols (d : FVec Ideal SN .f32) : FVec Ideal SN128 .f32 :=
  broadcastInDim SN128 ![0, 1] (by decide) (broadcastInDim SN1 ![0] (by decide) d)

/-- The aggregated table: rows scaled by the weights, gathered at the sources, added into the targets, scaled again. -/
def kAgg (xw : FVec Ideal SN128 .f32) (srcW dstC : IVec SM1 32) (d : FVec Ideal SN .f32) : FVec Ideal SN128 .f32 :=
  mulf
    (Host.scatterAdd (rowScatter 50000 850000 128 (by decide)) (broadcastInDim SN128 ![] (by decide) (constant S0 .f32 0x00000000#32)) dstC
      (Host.gather (rowGather 50000 850000 128 (by decide)) (mulf xw (disCols d)) srcW))
    (disCols d)

/-- 64 columns of the aggregated table from column `o` on, plus the bias. -/
def kOut (o : Nat) (hs : SN128.Slices ![0, o] SN64) (A : FVec Ideal SN128 .f32) (b : FVec Ideal SZ .f32) : FVec Ideal SN64 .f32 :=
  addf (extractStridedSlice SN64 ![0, o] A hs)
    (broadcastInDim SN64 ![0, 1] (by decide) (broadcastInDim S1Z ![1] (by decide) b))

theorem col_apply (v : IVec SM 32) (e : Fin 850000) : col v (ix2 e (0 : Fin 1)) = v (ix1 e) :=
  Keepdims.column_apply _ v e

/-- The row of a table an edge reads: its index clamped into the table. -/
def rowOf (idx : IVec SM1 32) (e : Fin 850000) : Fin 50000 :=
  ⟨min (idx (ix2 e (0 : Fin 1))).toInt.toNat (50000 - 1), by omega⟩

/-- The edges added into node `n`: those whose target index, read signed, is `n`. -/
def into (idx : IVec SM1 32) (n : Fin 50000) : Finset (Fin 850000) :=
  Finset.univ.filter (fun e : Fin 850000 => (idx (ix2 e (0 : Fin 1))).toInt = (n.val : ℤ))

theorem mem_into (dst : IVec SM 32) (n : Fin 50000) (e : Fin 850000) (he : e ∈ into (col dst) n) :
    (dst (ix1 e)).toInt = (n.val : ℤ) := by
  have h := (Finset.mem_filter.mp he).2
  rwa [col_apply] at h

theorem disCols_apply (d : FVec Ideal SN .f32) (n : Fin 50000) (c : Fin 128) : disCols d (ix2 n c) = d (ix1 n) :=
  Keepdims.rows_apply _ _ d n c

theorem kAgg_apply (xw : FVec Ideal SN128 .f32) (srcW : IVec SM1 32) (dst : IVec SM 32) (d : FVec Ideal SN .f32)
    (n : Fin 50000) (c : Fin 128) :
    kAgg xw srcW (col dst) d (ix2 n c)
      = (∑ e ∈ into (col dst) n, xw (ix2 (rowOf srcW e) c) * d (ix1 (rowOf srcW e))) * d (ix1 n) := by
  unfold kAgg
  rw [mulf_apply, disCols_apply]
  refine congrArg (· * d (ix1 n)) ?_
  refine (host_scatterAdd_rows_apply (by decide) _ (col dst) _ n c).trans ?_
  have hz : broadcastInDim SN128 ![] (by decide) (constant (F := Ideal) S0 .f32 0x00000000#32) (ix2 n c) = 0 :=
    Ideal.ofBits_zero_f32
  rw [hz, zero_add]
  unfold into
  refine Finset.sum_congr rfl fun e _ => ?_
  refine (gather_rows_apply (by decide) (by decide) _ srcW e c).trans ?_
  show mulf xw (disCols d) (ix2 (rowOf srcW e) c) = _
  rw [mulf_apply, disCols_apply]

theorem kOut_apply (o : Nat) (hs : SN128.Slices ![0, o] SN64) (A : FVec Ideal SN128 .f32) (b : FVec Ideal SZ .f32)
    (n : Fin 50000) (q : Fin 64) (c : Fin 128) (hc : c.val = o + q.val) :
    kOut o hs A b (ix2 n q) = A (ix2 n c) + b (ix1 q) := by
  unfold kOut
  rw [addf_apply]
  refine congrArg₂ (· + ·) ?_ (Keepdims.cols_apply _ _ b n q)
  refine extractStridedSlice_apply ![0, o] A hs (ix2 n q) (ix2 n c) (fun a => ?_)
  match a with
  | ⟨0, _⟩ => show n.val = 0 + n.val; omega
  | ⟨1, _⟩ => show c.val = o + q.val; exact hc

/-! ## The second way: gather, weight each edge, add into the targets -/

/-- The dimension numbers of gathering one number per edge from a vector of nodes. -/
abbrev disGather : GatherDims SN SM1 SM := vecGather 50000 850000 (by decide)

def rOut (xwm : FVec Ideal SN64 .f32) (srcW dstW dstC : IVec SM1 32) (d : FVec Ideal SN .f32) (b : FVec Ideal SZ .f32) :
    FVec Ideal SN64 .f32 :=
  addf
    (Host.scatterAdd (rowScatter 50000 850000 64 (by decide)) (broadcastInDim SN64 ![] (by decide) (constant S0 .f32 0x00000000#32)) dstC
      (mulf (Host.gather (rowGather 50000 850000 64 (by decide)) xwm srcW)
        (broadcastInDim SM64 ![0, 1] (by decide) (broadcastInDim SM1 ![0] (by decide)
          (mulf (Host.gather disGather d srcW) (Host.gather disGather d dstW))))))
    (broadcastInDim SN64 ![0, 1] (by decide) (broadcastInDim S1Z ![1] (by decide) b))

/-- A target that is a node is its own normalised, clamped form. -/
theorem rowOf_wrapNeg (dst : IVec SM 32) (n : Fin 50000) (e : Fin 850000) (he : (dst (ix1 e)).toInt = (n.val : ℤ)) :
    rowOf (col (wrapNeg dst)) e = n := by
  have hn := n.isLt
  have h0 : 0 ≤ (dst (ix1 e)).toInt := by omega
  have hw : wrapNeg dst (ix1 e) = dst (ix1 e) :=
    wrapNeg_of_nonneg (dst (ix1 e)) 0#32 50000#32 (by decide) h0
  refine Fin.ext ?_
  show min ((col (wrapNeg dst)) (ix2 e (0 : Fin 1))).toInt.toNat (50000 - 1) = n.val
  rw [col_apply, hw]
  omega

theorem rOut_apply (xwm : FVec Ideal SN64 .f32) (srcW : IVec SM1 32) (dst : IVec SM 32) (d : FVec Ideal SN .f32)
    (b : FVec Ideal SZ .f32) (n : Fin 50000) (q : Fin 64) :
    rOut xwm srcW (col (wrapNeg dst)) (col dst) d b (ix2 n q)
      = (∑ e ∈ into (col dst) n, xwm (ix2 (rowOf srcW e) q) * (d (ix1 (rowOf srcW e)) * d (ix1 n))) + b (ix1 q) := by
  unfold rOut
  rw [addf_apply]
  refine congrArg₂ (· + ·) ?_ (Keepdims.cols_apply _ _ b n q)
  refine (host_scatterAdd_rows_apply (by decide) _ (col dst) _ n q).trans ?_
  have hz : broadcastInDim SN64 ![] (by decide) (constant (F := Ideal) S0 .f32 0x00000000#32) (ix2 n q) = 0 :=
    Ideal.ofBits_zero_f32
  rw [hz, zero_add]
  refine Finset.sum_congr rfl fun e he => ?_
  have he' : (dst (ix1 e)).toInt = (n.val : ℤ) := mem_into dst n e he
  rw [mulf_apply]
  refine congrArg₂ (· * ·) (gather_rows_apply (by decide) (by decide) xwm srcW e q) ?_
  refine (Keepdims.rows_apply _ _ _ e q).trans ?_
  rw [mulf_apply]
  refine congrArg₂ (· * ·) (gather_vec_apply (by decide) (by decide) d srcW e) ?_
  refine (gather_vec_apply (by decide) (by decide) d (col (wrapNeg dst)) e).trans ?_
  show d (ix1 (rowOf (col (wrapNeg dst)) e)) = _
  rw [rowOf_wrapNeg dst n e he']

/-! ## The two ways agree -/

/-- The two computations of the layer give the same table, when the weights are non-negative reals and the 64
    columns the first way keeps are the columns of the second way's table. -/
theorem two_ways (o : Nat) (hs : SN128.Slices ![0, o] SN64) (xw : FVec Ideal SN128 .f32) (xwm : FVec Ideal SN64 .f32)
    (hxw : ∀ (n : Fin 50000) (q : Fin 64) (c : Fin 128), c.val = o + q.val → xw (ix2 n c) = xwm (ix2 n q))
    (srcW : IVec SM1 32) (dst : IVec SM 32) (d : FVec Ideal SN .f32) (hd : ∀ i, 0 ≤ d i ∧ d i ≠ ⊤)
    (b : FVec Ideal SZ .f32) :
    kOut o hs (kAgg xw srcW (col dst) d) b = rOut xwm srcW (col (wrapNeg dst)) (col dst) d b := by
  have ho : o + 64 ≤ 128 := by
    obtain ⟨_, h⟩ := hs
    exact h 1
  funext i
  obtain ⟨n, q, rfl⟩ : ∃ (n : Fin 50000) (q : Fin 64), i = ix2 n q := ⟨i 0, i 1, eq_ix2 i⟩
  have hq := q.isLt
  rw [kOut_apply o hs _ b n q ⟨o + q.val, by omega⟩ rfl, kAgg_apply, rOut_apply]
  refine congrArg (· + b (ix1 q)) ?_
  rw [sum_mul_of_nonneg _ _ _ (hd (ix1 n)).1 (hd (ix1 n)).2]
  refine Finset.sum_congr rfl fun e _ => ?_
  rw [hxw (rowOf srcW e) q ⟨o + q.val, by omega⟩ rfl, mul_assoc]

end Cert.Gcn

end
-- ==== Proof.KernelValue.lean ====
/-
  What the kernel's program computes, in the layer's terms.

  After the region the result array holds the features times the joined weights (`XwArray.final`). The host lines
  that follow put that table through the layer's first way (`Cert.Gcn.kAgg`): scale the rows by the node weights,
  gather at the edges' sources, add into the targets' rows, scale again; the first result is the first 64 columns plus
  the first bias, the second the last 64 columns plus the second bias (`Cert.Gcn.kOut`).

  The lines are read in their three stretches. The first builds the edges' endpoints (a row of the edge list followed
  by the self loops) and the two halves of the node weights: the comparison `deg > 0` and the reciprocal square root of
  `max deg 1`. The second, the selection between them, gives the node weights. The third is the layer. Each stretch is
  read from ANY buffer contents, so that what the earlier stretches computed enters the later ones as a variable; then
  the three are chained, and the result read off the run of the whole program: every weakly fair execution ends with
  the two result buffers at those terms of the arguments, the arguments unchanged.
-/
import proofs.«135606_j35605278883995_2_alg».proof.Proof.Gen.KernelIdeal.Frame
import proofs.«135606_j35605278883995_2_alg».proof.Proof.XwArray
import proofs.«135606_j35605278883995_2_alg».proof.Proof.Gcn
import Idealize.ShloMosaic.Lib.Pipeline.Value
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen

/-- Two stretches of host lines one after the other: the second runs from what the first leaves. -/
theorem after_append {τ : Topo} {sig : RefSig} {Val : EltTy → Type} (A B : List (HloOp τ sig Val)) (V : Valuation τ sig Val) :
    StableHlo.after (A ++ B) V = StableHlo.after B (StableHlo.after A V) := by
  induction A generalizing V with
  | nil => rfl
  | cons op A ih =>
    rw [List.cons_append, StableHlo.after_cons, StableHlo.after_cons]
    exact ih _

/-! ## The first stretch: endpoints, and the two halves of the node weights -/

section First
variable (W : Valuation τ sig (Elt Ideal))

theorem first_v5 :
    (StableHlo.after (hostOps1 (F := Ideal)) W (Proc.devRef .tc main_v5) : IVec S850000 32)
      = Cert.Gcn.endpoints 0 (by decide) (W (Proc.devRef .tc main_arg1)) := by
  simp only [hostOps1]
  after_results_simp <;> rfl

theorem first_v8 :
    (StableHlo.after (hostOps1 (F := Ideal)) W (Proc.devRef .tc main_v8) : IVec S850000 32)
      = Cert.Gcn.endpoints 1 (by decide) (W (Proc.devRef .tc main_arg1)) := by
  simp only [hostOps1]
  after_results_simp <;> rfl

theorem first_v14 :
    (StableHlo.after (hostOps1 (F := Ideal)) W (Proc.devRef .tc main_v14) : IVec S50000 1)
      = cmpf .ogt (Cert.Gcn.deg (Cert.Gcn.endpoints 1 (by decide) (W (Proc.devRef .tc main_arg1))))
          (broadcastInDim Cert.Gcn.SN ![] (by decide) (constant (F := Ideal) Cert.Gcn.S0 .f32 0x00000000#32)) := by
  simp only [hostOps1]
  after_results_simp <;> rfl

theorem first_v17 :
    (StableHlo.after (hostOps1 (F := Ideal)) W (Proc.devRef .tc main_v17) : FVec Ideal S50000 .f32)
      = Host.rsqrt (maximumf (Cert.Gcn.deg (Cert.Gcn.endpoints 1 (by decide) (W (Proc.devRef .tc main_arg1))))
          (broadcastInDim Cert.Gcn.SN ![] (by decide) (constant (F := Ideal) Cert.Gcn.S0 .f32 0x3F800000#32))) := by
  simp only [hostOps1]
  after_results_simp <;> rfl

theorem first_cst_3 :
    (StableHlo.after (hostOps1 (F := Ideal)) W (Proc.devRef .tc main_cst_3) : FVec Ideal S_ .f32)
      = constant (F := Ideal) Cert.Gcn.S0 .f32 0x00000000#32 := by
  simp only [hostOps1]
  after_results_simp <;> rfl

theorem first_v1 : StableHlo.after (hostOps1 (F := Ideal)) W (Proc.devRef .tc main_v1) = W (Proc.devRef .tc main_v1) := by
  simp only [hostOps1]
  after_results_simp <;> rfl

theorem first_arg3 : StableHlo.after (hostOps1 (F := Ideal)) W (Proc.devRef .tc main_arg3) = W (Proc.devRef .tc main_arg3) := by
  simp only [hostOps1]
  after_results_simp <;> rfl

theorem first_arg5 : StableHlo.after (hostOps1 (F := Ideal)) W (Proc.devRef .tc main_arg5) = W (Proc.devRef .tc main_arg5) := by
  simp only [hostOps1]
  after_results_simp <;> rfl

end First

/-! ## The second stretch: the node weights selected -/

section Second
variable (W : Valuation τ sig (Elt Ideal))

theorem second_v18 :
    (StableHlo.after (hostOps1_1 (F := Ideal)) W (Proc.devRef .tc main_v18) : FVec Ideal S50000 .f32)
      = select (W (Proc.devRef .tc main_v14) : IVec S50000 1) (W (Proc.devRef .tc main_v17) : FVec Ideal S50000 .f32)
          (broadcastInDim Cert.Gcn.SN ![] (by decide) (id (W (Proc.devRef .tc main_cst_3) : FVec Ideal S_ .f32))) := by
  simp only [hostOps1_1]
  after_results_simp
  simp only [cast_eq]

theorem second_v1 : StableHlo.after (hostOps1_1 (F := Ideal)) W (Proc.devRef .tc main_v1) = W (Proc.devRef .tc main_v1) := by
  simp only [hostOps1_1]
  after_results_simp <;> rfl

theorem second_v5 : StableHlo.after (hostOps1_1 (F := Ideal)) W (Proc.devRef .tc main_v5) = W (Proc.devRef .tc main_v5) := by
  simp only [hostOps1_1]
  after_results_simp <;> rfl

theorem second_v8 : StableHlo.after (hostOps1_1 (F := Ideal)) W (Proc.devRef .tc main_v8) = W (Proc.devRef .tc main_v8) := by
  simp only [hostOps1_1]
  after_results_simp <;> rfl

theorem second_arg3 : StableHlo.after (hostOps1_1 (F := Ideal)) W (Proc.devRef .tc main_arg3) = W (Proc.devRef .tc main_arg3) := by
  simp only [hostOps1_1]
  after_results_simp <;> rfl

theorem second_arg5 : StableHlo.after (hostOps1_1 (F := Ideal)) W (Proc.devRef .tc main_arg5) = W (Proc.devRef .tc main_arg5) := by
  simp only [hostOps1_1]
  after_results_simp <;> rfl

end Second

/-! ## The third stretch: the layer -/

section Third
variable (W : Valuation τ sig (Elt Ideal))

/-- The aggregated table from what the earlier stretches left. -/
def aggOf : FVec Ideal S50000x128 .f32 :=
  Cert.Gcn.kAgg (W (Proc.devRef .tc main_v1))
    (Cert.Gcn.col (Cert.Gcn.wrapNeg (W (Proc.devRef .tc main_v5))))
    (Cert.Gcn.col (W (Proc.devRef .tc main_v8)))
    (W (Proc.devRef .tc main_v18))

theorem third_v38 :
    (StableHlo.after (hostOps1_2 (F := Ideal)) W (Proc.devRef .tc main_v38) : FVec Ideal S50000x64 .f32)
      = Cert.Gcn.kOut 0 (by decide) (aggOf W) (W (Proc.devRef .tc main_arg3)) := by
  simp only [hostOps1_2]
  after_results_simp <;> rfl

theorem third_v42 :
    (StableHlo.after (hostOps1_2 (F := Ideal)) W (Proc.devRef .tc main_v42) : FVec Ideal S50000x64 .f32)
      = Cert.Gcn.kOut 64 (by decide) (aggOf W) (W (Proc.devRef .tc main_arg5)) := by
  simp only [hostOps1_2]
  after_results_simp <;> rfl

end Third

/-! ## The three stretches chained -/

theorem after_three {τ : Topo} {sig : RefSig} {Val : EltTy → Type} (A B C : List (HloOp τ sig Val)) (V : Valuation τ sig Val) :
    StableHlo.after (List.flatten [A, B, C]) V = StableHlo.after C (StableHlo.after B (StableHlo.after A V)) := by
  rw [List.flatten_cons, List.flatten_cons, List.flatten_cons, List.flatten_nil, List.append_nil, after_append, after_append]

/-- One result of the kernel's program as a term of the projection table, the edge list and one bias: 64 columns of
    the aggregated table from column `o` on, plus the bias. -/
def out (o : Nat) (hs : S50000x128.Slices ![0, o] S50000x64) (xw : FVec Ideal S50000x128 .f32) (e : IVec S2x800000 32)
    (b : FVec Ideal S64 .f32) : FVec Ideal S50000x64 .f32 :=
  Cert.Gcn.kOut o hs
    (Cert.Gcn.kAgg xw
      (Cert.Gcn.col (Cert.Gcn.wrapNeg (Cert.Gcn.endpoints 0 (by decide) e)))
      (Cert.Gcn.col (Cert.Gcn.endpoints 1 (by decide) e))
      (Cert.Gcn.dis (Cert.Gcn.endpoints 1 (by decide) e))) b

section Chained
variable (W : Valuation τ sig (Elt Ideal))

/-- The aggregated table the third stretch finds, in terms of what the first stretch started from. -/
theorem aggOf_chain :
    aggOf (StableHlo.after (hostOps1_1 (F := Ideal)) (StableHlo.after (hostOps1 (F := Ideal)) W))
      = Cert.Gcn.kAgg (W (Proc.devRef .tc main_v1))
          (Cert.Gcn.col (Cert.Gcn.wrapNeg (Cert.Gcn.endpoints 0 (by decide) (W (Proc.devRef .tc main_arg1)))))
          (Cert.Gcn.col (Cert.Gcn.endpoints 1 (by decide) (W (Proc.devRef .tc main_arg1))))
          (Cert.Gcn.dis (Cert.Gcn.endpoints 1 (by decide) (W (Proc.devRef .tc main_arg1)))) := by
  unfold aggOf
  rw [second_v1, second_v5, second_v8, second_v18, first_v1, first_v5, first_v8, first_v14, first_v17, first_cst_3]
  unfold Cert.Gcn.dis
  rfl

/-- The host lines after the region, read at the first result, from any buffer contents. -/
theorem tail_v38 :
    (StableHlo.after (List.flatten [hostOps1 (F := Ideal), hostOps1_1, hostOps1_2]) W (Proc.devRef .tc main_v38) :
        FVec Ideal S50000x64 .f32)
      = out 0 (by decide) (W (Proc.devRef .tc main_v1)) (W (Proc.devRef .tc main_arg1)) (W (Proc.devRef .tc main_arg3)) := by
  rw [after_three, third_v38, aggOf_chain, second_arg3, first_arg3]
  rfl

/-- The host lines after the region, read at the second result, from any buffer contents. -/
theorem tail_v42 :
    (StableHlo.after (List.flatten [hostOps1 (F := Ideal), hostOps1_1, hostOps1_2]) W (Proc.devRef .tc main_v42) :
        FVec Ideal S50000x64 .f32)
      = out 64 (by decide) (W (Proc.devRef .tc main_v1)) (W (Proc.devRef .tc main_arg1)) (W (Proc.devRef .tc main_arg5)) := by
  rw [after_three, third_v42, aggOf_chain, second_arg5, first_arg5]
  rfl

end Chained

/-! ## The run -/

section Run
variable (m : (ℓ : Loc nD τ sig) → Buf (Elt Ideal) ℓ) (ρ : Dev nD → PrngReg)

/-- The two weight matrices side by side, as the kernel's program joins them. -/
abbrev joinedW (c : Dev nD) : FVec Ideal S256x128 .f32 :=
  concatenate S256x128 1 [⟨S256x64, m ((c : Thread nD τ).loc main_arg2)⟩, ⟨S256x64, m ((c : Thread nD τ).loc main_arg4)⟩]
    concatenates_S256x64_S256x64_S256x128_d1

/-- The buffer contents the lines after the region start from: the region's arrays as it leaves them, every other buffer
    as the region found it. -/
abbrev exitW (c : Dev nD) : Valuation τ sig (Elt Ideal) :=
  Pipeline.withArrays (cfgs 0).spec c (V0 m c) fun w => (dats m 0 c).arrAt w (cfgs 0).N

theorem exit_v1 (c : Dev nD) :
    exitW m c (Proc.devRef .tc main_v1)
      = Cert.KernelIdeal.XwArray.prod (m ((c : Thread nD τ).loc main_arg0)) (joinedW m c) :=
  (Pipeline.withArrays_arr spec0 launch0.win.arr_inj c _ _ 2).trans (Cert.KernelIdeal.XwArray.final m c)

theorem exit_arg1 (c : Dev nD) : exitW m c (Proc.devRef .tc main_arg1) = m ((c : Thread nD τ).loc main_arg1) :=
  (Pipeline.withArrays_of_ne _ c (V0 m c) _ main_arg1 (by exact (by decide : ∀ w, Pipeline.arrRef spec0 w ≠ main_arg1))).trans
    (V_main_arg1 m c)

theorem exit_arg3 (c : Dev nD) : exitW m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

theorem exit_arg5 (c : Dev nD) : exitW m c (Proc.devRef .tc main_arg5) = m ((c : Thread nD τ).loc main_arg5) :=
  (Pipeline.withArrays_of_ne _ c (V0 m c) _ main_arg5 (by exact (by decide : ∀ w, Pipeline.arrRef spec0 w ≠ main_arg5))).trans
    (V_main_arg5 m c)

/-- The first result after the whole program, as a term of the arguments. -/
theorem tail38 (c : Dev nD) :
    Pipeline.afterTail₀ cfgs (dats m) 0 (V0 m) [hostOps1, hostOps1_1, hostOps1_2] c main_v38
      = out 0 (by decide) (Cert.KernelIdeal.XwArray.prod (m ((c : Thread nD τ).loc main_arg0)) (joinedW m c))
          (m ((c : Thread nD τ).loc main_arg1)) (m ((c : Thread nD τ).loc main_arg3)) := by
  unfold Pipeline.afterTail₀
  refine (tail_v38 (exitW m c)).trans ?_
  rw [exit_v1, exit_arg1, exit_arg3]

/-- The second result after the whole program, as a term of the arguments. -/
theorem tail42 (c : Dev nD) :
    Pipeline.afterTail₀ cfgs (dats m) 0 (V0 m) [hostOps1, hostOps1_1, hostOps1_2] c main_v42
      = out 64 (by decide) (Cert.KernelIdeal.XwArray.prod (m ((c : Thread nD τ).loc main_arg0)) (joinedW m c))
          (m ((c : Thread nD τ).loc main_arg1)) (m ((c : Thread nD τ).loc main_arg5)) := by
  unfold Pipeline.afterTail₀
  refine (tail_v42 (exitW m c)).trans ?_
  rw [exit_v1, exit_arg1, exit_arg5]

/-- Every weakly fair execution of the kernel's program terminates with the two results at those terms of the
    arguments and the arguments unchanged. -/
theorem run : θ_run defs (onTc (τ := τ) (main (F := Ideal))) ⟨m, fun _ => 0, ρ⟩ (fun r => ∀ c : Dev nD,
      r.2.mem ((c.tc : Thread nD τ).loc main_v38)
        = out 0 (by decide) (Cert.KernelIdeal.XwArray.prod (m ((c : Thread nD τ).loc main_arg0)) (joinedW m c))
            (m ((c : Thread nD τ).loc main_arg1)) (m ((c : Thread nD τ).loc main_arg3))
      ∧ r.2.mem ((c.tc : Thread nD τ).loc main_v42)
        = out 64 (by decide) (Cert.KernelIdeal.XwArray.prod (m ((c : Thread nD τ).loc main_arg0)) (joinedW m c))
            (m ((c : Thread nD τ).loc main_arg1)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v38 (Pipeline.mem_restRefs_of main_v38 (by decide) (by decide))).trans (tail38 m c),
      ((h c).2 main_v42 (Pipeline.mem_restRefs_of main_v42 (by decide) (by decide))).trans (tail42 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Run

end Cert.KernelIdeal.KernelValue

end
-- ==== Proof.RefValue.lean ====
/-
  What the reference computes, in the layer's terms.

  The reference multiplies the node features by each weight matrix on its own (`x · W`, entry `(n, q)` the sum over
  `k < 256` of `x (n, k) · W (k, q)`) and puts each product through the layer's second way (`Cert.Gcn.rOut`): gather the
  rows at the edges' sources, weight each edge by the product of its endpoints' node weights, add into the targets'
  rows, add the bias. Its two results are that term of the features, the edge list, one weight matrix and one bias.
-/
import proofs.«135606_j35605278883995_2_alg».proof.Proof.RefRun
import proofs.«135606_j35605278883995_2_alg».proof.Proof.Gcn
import proofs.«135606_j35605278883995_2_alg».proof.Proof.LibContract
import Idealize.ShloMosaic.PureOps.Ideal.Laws

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.ValueP

/-- The left operand's row is the result's row. -/
theorem lhs_row (j : S50000x64.Idx) (q : dot_S50000x256_S256x64_S50000x64_1_0_0_1_n_n.contr.Idx) :
    (dot_S50000x256_S256x64_S50000x64_1_0_0_1_n_n.lhsIdx j q 0).val = (j 0).val := by
  unfold DotDims.lhsIdx
  rw [dif_neg (show ¬(0 : Fin S50000x256.rank) ∈ dot_S50000x256_S256x64_S50000x64_1_0_0_1_n_n.lhsBatch by decide),
    dif_pos (show (0 : Fin S50000x256.rank) ∈ dot_S50000x256_S256x64_S50000x64_1_0_0_1_n_n.lhsNonContracting by decide)]
  rfl

/-- The right operand's column is the result's column. -/
theorem rhs_col (j : S50000x64.Idx) (q : dot_S50000x256_S256x64_S50000x64_1_0_0_1_n_n.contr.Idx) :
    (dot_S50000x256_S256x64_S50000x64_1_0_0_1_n_n.rhsIdx j q 1).val = (j 1).val := by
  unfold DotDims.rhsIdx
  rw [dif_neg (show ¬(1 : Fin S256x64.rank) ∈ dot_S50000x256_S256x64_S50000x64_1_0_0_1_n_n.rhsBatch by decide),
    dif_pos (show (1 : Fin S256x64.rank) ∈ dot_S50000x256_S256x64_S50000x64_1_0_0_1_n_n.rhsNonContracting by decide)]
  rfl

/-- The features times one weight matrix. -/
def xwOf (x : FVec Ideal S50000x256 .f32) (w : FVec Ideal S256x64 .f32) : FVec Ideal S50000x64 .f32 :=
  Host.dotGeneral dot_S50000x256_S256x64_S50000x64_1_0_0_1_n_n none x w

/-- Its entry `(n, q)`: row `n` of the features against column `q` of the weights. -/
theorem xwOf_apply (x : FVec Ideal S50000x256 .f32) (w : FVec Ideal S256x64 .f32) (n : Fin 50000) (q : Fin 64) :
    xwOf x w (ix2 n q) = ∑ k : Fin 256, x (ix2 n k) * w (ix2 k q) := by
  unfold xwOf
  simp only [Host.dotGeneral]
  rw [Ideal.dotGeneral_apply]
  exact Idealize.ShloMosaic.Contract2.sum_contr_eq_sum_fin (M := EReal) dot_S50000x256_S256x64_S50000x64_1_0_0_1_n_n
    rfl rfl rfl rfl lhs_row rhs_col x w (ix2 n q)

/-- One result of the reference as a term of the features, the edge list, one weight matrix and its bias. -/
def out (x : FVec Ideal S50000x256 .f32) (e : IVec S2x800000 32) (w : FVec Ideal S256x64 .f32) (b : FVec Ideal S64 .f32) :
    FVec Ideal S50000x64 .f32 :=
  Cert.Gcn.rOut (xwOf x w)
    (Cert.Gcn.col (Cert.Gcn.wrapNeg (Cert.Gcn.endpoints 0 (by decide) e)))
    (Cert.Gcn.col (Cert.Gcn.wrapNeg (Cert.Gcn.endpoints 1 (by decide) e)))
    (Cert.Gcn.col (Cert.Gcn.endpoints 1 (by decide) e))
    (Cert.Gcn.dis (Cert.Gcn.endpoints 1 (by decide) e)) b

variable (m : (ℓ : Loc nD τ sig) → Buf (Elt Ideal) ℓ)

/-- The first result's composed term is that term of the first weight matrix and bias. -/
theorem res48_eq (c : Dev nD) :
    res_main_v48 m c = out (m ((c.tc : Thread nD τ).loc main_arg0)) (m ((c.tc : Thread nD τ).loc main_arg1))
      (m ((c.tc : Thread nD τ).loc main_arg2)) (m ((c.tc : Thread nD τ).loc main_arg3)) := by
  unfold res_main_v48
  rfl

/-- The second result's composed term is that term of the second weight matrix and bias. -/
theorem res80_eq (c : Dev nD) :
    res_main_v80 m c = out (m ((c.tc : Thread nD τ).loc main_arg0)) (m ((c.tc : Thread nD τ).loc main_arg1))
      (m ((c.tc : Thread nD τ).loc main_arg4)) (m ((c.tc : Thread nD τ).loc main_arg5)) := by
  unfold res_main_v80
  rfl

end Cert.ReferenceIdeal.RefValue

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.Bridge.lean ====
/-
  The kernel's program and the reference compute one function of the arguments.

  The kernel's projection table is the features times the two weight matrices side by side; its first 64 columns are
  the features times the first matrix and its last 64 columns the features times the second (a column of the joined
  matrix is a column of one of the two). So each of the kernel's results is the layer's first way applied to a table
  whose kept columns are the reference's table, and the reference's result is the layer's second way applied to that
  table: the two ways agree (`Cert.Gcn.two_ways`), the node weights being non-negative reals.
-/
import proofs.«135606_j35605278883995_2_alg».proof.Proof.KernelValue
import proofs.«135606_j35605278883995_2_alg».proof.Proof.RefValue
import proofs.«135606_j35605278883995_2_alg».proof.Proof.LibJoinCols

set_option maxRecDepth 16384

noncomputable section

open scoped BigOperators

namespace Cert.Proof.Bridge

open Idealize.ShloMosaic Idealize.ShloMosaic.ValueIdx

/-- The two weight matrices side by side. -/
abbrev joined (w2 w4 : FVec Ideal ⟨2, ![256, 64]⟩ .f32)
    (h : Shape.Concatenates [(⟨2, ![256, 64]⟩ : Shape), (⟨2, ![256, 64]⟩ : Shape)] (⟨2, ![256, 128]⟩ : Shape) 1) :
    FVec Ideal ⟨2, ![256, 128]⟩ .f32 :=
  concatenate (⟨2, ![256, 128]⟩ : Shape) 1 [⟨(⟨2, ![256, 64]⟩ : Shape), w2⟩, ⟨(⟨2, ![256, 64]⟩ : Shape), w4⟩] h

/-- A column among the first 64 of the kernel's table is the reference's column for the first weight matrix. -/
theorem left_cols (x : FVec Ideal ⟨2, ![50000, 256]⟩ .f32) (w2 w4 : FVec Ideal ⟨2, ![256, 64]⟩ .f32)
    (h : Shape.Concatenates [(⟨2, ![256, 64]⟩ : Shape), (⟨2, ![256, 64]⟩ : Shape)] (⟨2, ![256, 128]⟩ : Shape) 1)
    (n : Fin 50000) (q : Fin 64) (c : Fin 128) (hc : c.val = 0 + q.val) :
    Cert.KernelIdeal.XwArray.prod x (joined w2 w4 h) (ix2 n c) = Cert.ReferenceIdeal.RefValue.xwOf x w2 (ix2 n q) := by
  rw [Cert.KernelIdeal.XwArray.prod_apply, Cert.ReferenceIdeal.RefValue.xwOf_apply]
  refine Finset.sum_congr rfl fun k _ => ?_
  refine congrArg (x (ix2 n k) * ·) ?_
  exact Idealize.ShloMosaic.JoinCols.pair_left w2 w4 h k q c (by omega)

/-- A column among the last 64 of the kernel's table is the reference's column for the second weight matrix. -/
theorem right_cols (x : FVec Ideal ⟨2, ![50000, 256]⟩ .f32) (w2 w4 : FVec Ideal ⟨2, ![256, 64]⟩ .f32)
    (h : Shape.Concatenates [(⟨2, ![256, 64]⟩ : Shape), (⟨2, ![256, 64]⟩ : Shape)] (⟨2, ![256, 128]⟩ : Shape) 1)
    (n : Fin 50000) (q : Fin 64) (c : Fin 128) (hc : c.val = 64 + q.val) :
    Cert.KernelIdeal.XwArray.prod x (joined w2 w4 h) (ix2 n c) = Cert.ReferenceIdeal.RefValue.xwOf x w4 (ix2 n q) := by
  rw [Cert.KernelIdeal.XwArray.prod_apply, Cert.ReferenceIdeal.RefValue.xwOf_apply]
  refine Finset.sum_congr rfl fun k _ => ?_
  refine congrArg (x (ix2 n k) * ·) ?_
  exact Idealize.ShloMosaic.JoinCols.pair_right w2 w4 h k q c hc

/-- The kernel's first result is the reference's first result. -/
theorem first_eq (x : FVec Ideal ⟨2, ![50000, 256]⟩ .f32) (e : IVec ⟨2, ![2, 800000]⟩ 32)
    (w2 w4 : FVec Ideal ⟨2, ![256, 64]⟩ .f32) (b : FVec Ideal ⟨1, ![64]⟩ .f32)
    (h : Shape.Concatenates [(⟨2, ![256, 64]⟩ : Shape), (⟨2, ![256, 64]⟩ : Shape)] (⟨2, ![256, 128]⟩ : Shape) 1)
    (hs : (⟨2, ![50000, 128]⟩ : Shape).Slices ![0, 0] ⟨2, ![50000, 64]⟩) :
    Cert.KernelIdeal.KernelValue.out 0 hs (Cert.KernelIdeal.XwArray.prod x (joined w2 w4 h)) e b
      = Cert.ReferenceIdeal.RefValue.out x e w2 b := by
  unfold Cert.KernelIdeal.KernelValue.out Cert.ReferenceIdeal.RefValue.out
  exact Cert.Gcn.two_ways 0 hs _ _ (fun n q c hc => left_cols x w2 w4 h n q c hc) _ _ _
    (fun i => Cert.Gcn.dis_nonneg _ i) b

/-- The kernel's second result is the reference's second result. -/
theorem second_eq (x : FVec Ideal ⟨2, ![50000, 256]⟩ .f32) (e : IVec ⟨2, ![2, 800000]⟩ 32)
    (w2 w4 : FVec Ideal ⟨2, ![256, 64]⟩ .f32) (b : FVec Ideal ⟨1, ![64]⟩ .f32)
    (h : Shape.Concatenates [(⟨2, ![256, 64]⟩ : Shape), (⟨2, ![256, 64]⟩ : Shape)] (⟨2, ![256, 128]⟩ : Shape) 1)
    (hs : (⟨2, ![50000, 128]⟩ : Shape).Slices ![0, 64] ⟨2, ![50000, 64]⟩) :
    Cert.KernelIdeal.KernelValue.out 64 hs (Cert.KernelIdeal.XwArray.prod x (joined w2 w4 h)) e b
      = Cert.ReferenceIdeal.RefValue.out x e w4 b := by
  unfold Cert.KernelIdeal.KernelValue.out Cert.ReferenceIdeal.RefValue.out
  exact Cert.Gcn.two_ways 64 hs _ _ (fun n q c hc => right_cols x w2 w4 h n q c hc) _ _ _
    (fun i => Cert.Gcn.dis_nonneg _ i) b

end Cert.Proof.Bridge

end
-- ==== Proof.lean ====
/-
  Two programs for one graph-convolution layer with two heads, and the claims about them.

  The kernel's program joins the two weight matrices, multiplies the node features by the joined matrix in one
  blocked pass, and aggregates once: rows scaled by the node weights, gathered along the edges, added into the targets,
  scaled again; each head is then 64 columns of that table plus its bias. The reference multiplies the features by each
  weight matrix on its own and aggregates each product with per-edge weights. Over the extended reals the two compute
  the same function of the arguments: the columns of the joined product are the columns of the two products, and the
  node weight of the target may be moved across the sum over the incoming edges because it is a non-negative real
  (Proof/Gcn.lean). The precondition is not needed for the equality.

  The three frames are the programs' runs with the results forgotten; the idealization rewrote nothing, so the
  preservation claim is trivial; the equality of the results is `Bridge.first_eq` / `Bridge.second_eq` between the
  kernel's run (Proof/KernelValue.lean) and the reference's run, read at arguments that agree.
-/
import proofs.«135606_j35605278883995_2_alg».proof.Defs
import proofs.«135606_j35605278883995_2_alg».proof.Proof.Gen.Kernel
import proofs.«135606_j35605278883995_2_alg».proof.Proof.Gen.Kernel.Skeleton
import proofs.«135606_j35605278883995_2_alg».proof.Proof.Gen.Kernel.Launch
import proofs.«135606_j35605278883995_2_alg».proof.Proof.Gen.Kernel.Points
import proofs.«135606_j35605278883995_2_alg».proof.Proof.Gen.Kernel.Frame
import proofs.«135606_j35605278883995_2_alg».proof.Proof.Gen.KernelIdeal
import proofs.«135606_j35605278883995_2_alg».proof.Proof.Gen.KernelIdeal.Skeleton
import proofs.«135606_j35605278883995_2_alg».proof.Proof.Gen.KernelIdeal.Launch
import proofs.«135606_j35605278883995_2_alg».proof.Proof.Gen.KernelIdeal.Points
import proofs.«135606_j35605278883995_2_alg».proof.Proof.Gen.KernelIdeal.Frame
import proofs.«135606_j35605278883995_2_alg».proof.Proof.Gen.ReferenceIdeal
import proofs.«135606_j35605278883995_2_alg».proof.Proof.Gen.Pre_finite_inputs
import proofs.«135606_j35605278883995_2_alg».proof.Proof.RefRun
import proofs.«135606_j35605278883995_2_alg».proof.Proof.KernelValue
import proofs.«135606_j35605278883995_2_alg».proof.Proof.RefValue
import proofs.«135606_j35605278883995_2_alg».proof.Proof.Bridge
import Idealize.ShloMosaic.Adequacy
import Idealize.ShloMosaic.Init

noncomputable section

namespace Cert.Proof

open Idealize.ShloMosaic Idealize.ShloMosaic.TcCoe Idealize.SL.Sem

/-- The kernel's program runs and leaves its arguments as they were. -/
theorem frame_k : Cert.frame_Kernel := fun m ρ _ => Cert.Kernel.Gen.frame m ρ

/-- So does its idealization. -/
theorem frame_ki : Cert.frame_KernelIdeal :=
  fun m ρ _ => Cert.KernelIdeal.Gen.frame m ρ

/-- The reference's frame is its run with the results forgotten. -/
theorem frame_ri : Cert.frame_ReferenceIdeal := fun m ρ _ =>
  (θ_run Cert.ReferenceIdeal.defs _ _).mono (fun _ h c => (h c).2.2)
    (Cert.ReferenceIdeal.ValueP.run (F := Ideal) m ρ)

/-- From arguments that agree the two programs end with equal results: the kernel's run and the reference's run, the
    reference's two terms rewritten at the kernel's arguments, are the two ways of computing the layer. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ?_)
    (Cert.ReferenceIdeal.ValueP.run (F := Ideal) m' ρ')
  obtain ⟨h48, h80, hargs⟩ := h c
  obtain ⟨e0, e1, e2, e3, e4, e5⟩ := hagree c
  refine ⟨h48.trans ?_, h80.trans ?_, hargs⟩
  · rw [Cert.ReferenceIdeal.RefValue.res48_eq, e0, e1, e2, e3]
    exact (Cert.Proof.Bridge.first_eq _ _ _ _ _ _ _).symm
  · rw [Cert.ReferenceIdeal.RefValue.res80_eq, e0, e1, e4, e5]
    exact (Cert.Proof.Bridge.second_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
